-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x32 : Shape := ⟨3, ![16, 2048, 32]⟩
abbrev S32x128 : Shape := ⟨2, ![32, 128]⟩
abbrev S_ : Shape := ⟨0, ![]⟩

class Facts : Prop where
  bcast_S_S16x2048x32 : S_.BroadcastsInDim S16x2048x32 (![] : Fin 0 → Fin S16x2048x32.rank)
  reducesTo_S16x2048x32_S_d0_1_2 : S16x2048x32.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg4 : FVec F S32x128 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  main_v23

def fn {F : FTy → Type} [FloatOps F] (main_arg0 : FVec F S16x2048x32 .f32) (main_arg1 : FVec F S32x128 .f32) (main_arg2 : FVec F S32x128 .f32) (main_arg3 : FVec F S32x128 .f32) (main_arg4 : FVec F S32x128 .f32) : IVec S_ 1 :=
  let main_v0 : FVec F S16x2048x32 .f32 := Host.absf main_arg0
  let main_cst : FVec F S_ .f32 := constant S_ .f32 0x7F800000#32
  let main_v1 : FVec F S16x2048x32 .f32 := broadcastInDim S16x2048x32 ![] bcast_S_S16x2048x32 main_cst
  let main_v2 : IVec S16x2048x32 1 := cmpf .olt main_v0 main_v1
  let main_c : IVec S_ 1 := constantI S_ 1 1#1
  let main_v3 : IVec S_ 1 := (fun x v => Host.reduce IntOp.andi x v reducesTo_S16x2048x32_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_v13 main_v16
-- ==== Kernel.lean ====
abbrev S16x2048x32 : Shape := ⟨3, ![16, 2048, 32]⟩
abbrev S32x128 : Shape := ⟨2, ![32, 128]⟩
abbrev S_ : Shape := ⟨0, ![]⟩
abbrev S32 : Shape := ⟨1, ![32]⟩
abbrev S32x1 : Shape := ⟨2, ![32, 1]⟩
abbrev S1x32 : Shape := ⟨2, ![1, 32]⟩
abbrev S3x32 : Shape := ⟨2, ![3, 32]⟩
abbrev S16x2048x32x128 : Shape := ⟨4, ![16, 2048, 32, 128]⟩
abbrev S1x512x32 : Shape := ⟨3, ![1, 512, 32]⟩
abbrev S1x512x32x128 : Shape := ⟨4, ![1, 512, 32, 128]⟩
abbrev S512x32 : Shape := ⟨2, ![512, 32]⟩
abbrev S512x32x1 : Shape := ⟨3, ![512, 32, 1]⟩
abbrev S1x32x128 : Shape := ⟨3, ![1, 32, 128]⟩
abbrev S512x32x128 : Shape := ⟨3, ![512, 32, 128]⟩

abbrev nBuf : Space → Nat
  | .hbm => 46
  | .vmem => 8
  | .smem => 0
  | _ => 0

abbrev bufTy : (tb : Table) → Fin (tcTables nBuf tb) → BufTy
  | .hbm, ⟨0, _⟩ => ⟨S16x2048x32, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32x1, .f32⟩
  | .hbm, ⟨16, _⟩ => ⟨S32x128, .f32⟩
  | .hbm, ⟨17, _⟩ => ⟨S32x128, .f32⟩
  | .hbm, ⟨18, _⟩ => ⟨S32x1, .f32⟩
  | .hbm, ⟨19, _⟩ => ⟨S32x128, .f32⟩
  | .hbm, ⟨20, _⟩ => ⟨S32x128, .f32⟩
  | .hbm, ⟨21, _⟩ => ⟨S32x128, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32x128, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x128, .f32⟩
  | .hbm, ⟨36, _⟩ => ⟨S_, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S1x32, .f32⟩
  | .hbm, ⟨42, _⟩ => ⟨S1x32, .f32⟩
  | .hbm, ⟨43, _⟩ => ⟨S1x32, .f32⟩
  | .hbm, ⟨44, _⟩ => ⟨S3x32, .f32⟩
  | .hbm, ⟨45, _⟩ => ⟨S16x2048x32x128, .f32⟩
  | .local _ .vmem, ⟨0, _⟩ => ⟨S1x512x32, .f32⟩
  | .local _ .vmem, ⟨1, _⟩ => ⟨S1x512x32, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S3x32, .f32⟩
  | .local _ .vmem, ⟨6, _⟩ => ⟨S1x512x32x128, .f32⟩
  | .local _ .vmem, ⟨7, _⟩ => ⟨S1x512x32x128, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S32x128_S32_d1 : S32x128.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S32_S1x32_1 : S32.BroadcastsInDim S1x32 (![1] : Fin 1 → Fin S1x32.rank)
  concatenates_S1x32_S1x32_S1x32_S3x32_d0 : Shape.Concatenates [S1x32, S1x32, S1x32] S3x32 0
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S3x32_S1x32_0_0 : ∀ a, (![0, 0] : Fin 2 → Nat) a + S1x32.size a ≤ S3x32.size a
  h_S1x32 : 0 < S1x32.numel
  shapeCasts_S1x32_S32 : S1x32.ShapeCasts S32
  inb_S3x32_S1x32_1_0 : ∀ a, (![1, 0] : Fin 2 → Nat) a + S1x32.size a ≤ S3x32.size a
  inb_S3x32_S1x32_2_0 : ∀ a, (![2, 0] : Fin 2 → Nat) a + S1x32.size a ≤ S3x32.size a
  shapeCasts_S32_S1x32 : S32.ShapeCasts S1x32
  broadcasts_S1x32_S512x32 : S1x32.Broadcasts S512x32
  shapeCasts_S512x32_S512x32x1 : S512x32.ShapeCasts S512x32x1
  shapeCasts_S32x128_S1x32x128 : S32x128.ShapeCasts S1x32x128
  broadcasts_S512x32x1_S512x32x128 : S512x32x1.Broadcasts S512x32x128
  broadcasts_S1x32x128_S512x32x128 : S1x32x128.Broadcasts S512x32x128
  inb_S1x512x32x128_S1x512x32x128_0_0_0_0 : ∀ a, (![0, 0, 0, 0] : Fin 4 → Nat) a + S1x512x32x128.size a ≤ S1x512x32x128.size a
  h_S1x512x32x128 : 0 < S1x512x32x128.numel
  shapeCasts_S1x512x32x128_S512x32x128 : S1x512x32x128.ShapeCasts S512x32x128
  shapeCasts_S512x32x128_S1x512x32x128 : S512x32x128.ShapeCasts S1x512x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32.size a ≤ S16x2048x32.size a
  hwx0_0 : ∀ i : grid0.Coords, EltTy.bits .f32 = 32 ∨ (Rect.block (s := S16x2048x32) S1x512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x32.size a ≤ S3x32.size a
  hwx0_4 : ∀ i : grid0.Coords, EltTy.bits .f32 = 32 ∨ (Rect.block (s := S3x32) S3x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x32x128.size a ≤ S16x2048x32x128.size a
  hwx0_5 : ∀ i : grid0.Coords, EltTy.bits .f32 = 32 ∨ (Rect.block (s := S16x2048x32x128) S1x512x32x128.size (cc0_transform_5 i) (hinb0_5 i)).WholeWords (EltTy.packing .f32)

variable [Facts₀]

abbrev win0_0 : Pipeline.Window sig grid0 :=
  Pipeline.Window.ofSpec (Memref.whole main_arg0) S1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S3x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x512x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x32 : Shape := ⟨3, ![16, 2048, 32]⟩
abbrev S32x128 : Shape := ⟨2, ![32, 128]⟩
abbrev S16x2048x32x1 : Shape := ⟨4, ![16, 2048, 32, 1]⟩
abbrev S1x1x32x128 : Shape := ⟨4, ![1, 1, 32, 128]⟩
abbrev S16x2048x32x128 : Shape := ⟨4, ![16, 2048, 32, 128]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S16x2048x32x1, .f32⟩
  | .hbm, ⟨6, _⟩ => ⟨S1x1x32x128, .f32⟩
  | .hbm, ⟨7, _⟩ => ⟨S16x2048x32x128, .f32⟩
  | .hbm, ⟨8, _⟩ => ⟨S16x2048x32x128, .f32⟩
  | .hbm, ⟨9, _⟩ => ⟨S16x2048x32x128, .f32⟩
  | .hbm, ⟨10, _⟩ => ⟨S1x1x32x128, .f32⟩
  | .hbm, ⟨11, _⟩ => ⟨S16x2048x32x128, .f32⟩
  | .hbm, ⟨12, _⟩ => ⟨S16x2048x32x128, .f32⟩
  | .hbm, ⟨13, _⟩ => ⟨S_, .f32⟩
  | .hbm, ⟨14, _⟩ => ⟨S16x2048x32, .f32⟩
  | .hbm, ⟨15, _⟩ => ⟨S16x2048x32x1, .f32⟩
  | .hbm, ⟨16, _⟩ => ⟨S_, .f32⟩
  | .hbm, ⟨17, _⟩ => ⟨S16x2048x32x1, .f32⟩
  | .hbm, ⟨18, _⟩ => ⟨S16x2048x32x1, .f32⟩
  | .hbm, ⟨19, _⟩ => ⟨S16x2048x32x128, .f32⟩
  | .hbm, ⟨20, _⟩ => ⟨S16x2048x32x128, .f32⟩
  | .hbm, ⟨21, _⟩ => ⟨S16x2048x32x128, .f32⟩
  | .hbm, ⟨22, _⟩ => ⟨S_, .f32⟩
  | .hbm, ⟨23, _⟩ => ⟨S16x2048x32, .f32⟩
  | .hbm, ⟨24, _⟩ => ⟨S16x2048x32x1, .f32⟩
  | .hbm, ⟨25, _⟩ => ⟨S_, .f32⟩
  | .hbm, ⟨26, _⟩ => ⟨S16x2048x32x1, .f32⟩
  | .hbm, ⟨27, _⟩ => ⟨S16x2048x32x1, .f32⟩
  | .hbm, ⟨28, _⟩ => ⟨S16x2048x32x128, .f32⟩
  | .hbm, ⟨29, _⟩ => ⟨S16x2048x32x128, .f32⟩
  | .hbm, ⟨30, _⟩ => ⟨S_, .f32⟩
  | .hbm, ⟨31, _⟩ => ⟨S16x2048x32x1, .f32⟩
  | .hbm, ⟨32, _⟩ => ⟨S16x2048x32x1, .f32⟩
  | .hbm, ⟨33, _⟩ => ⟨S16x2048x32x1, .f32⟩
  | .hbm, ⟨34, _⟩ => ⟨S16x2048x32x128, .f32⟩
  | .hbm, ⟨35, _⟩ => ⟨S16x2048x32x128, .f32⟩
  | .hbm, ⟨36, _⟩ => ⟨S1x1x32x128, .f32⟩
  | .hbm, ⟨37, _⟩ => ⟨S16x2048x32x128, .f32⟩
  | .hbm, ⟨38, _⟩ => ⟨S16x2048x32x128, .f32⟩
  | .hbm, ⟨39, _⟩ => ⟨S1x1x32x128, .f32⟩
  | .hbm, ⟨40, _⟩ => ⟨S16x2048x32x128, .f32⟩
  | .hbm, ⟨41, _⟩ => ⟨S16x2048x32x128, .f32⟩
  | .hbm, ⟨42, _⟩ => ⟨S_, .f32⟩
  | .hbm, ⟨43, _⟩ => ⟨S16x2048x32x128, .f32⟩
  | .hbm, ⟨44, _⟩ => ⟨S16x2048x32x128, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S16x2048x32_S16x2048x32x1_0_1_2 : S16x2048x32.BroadcastsInDim S16x2048x32x1 (![0, 1, 2] : Fin 3 → Fin S16x2048x32x1.rank)
  bcast_S32x128_S1x1x32x128_2_3 : S32x128.BroadcastsInDim S1x1x32x128 (![2, 3] : Fin 2 → Fin S1x1x32x128.rank)
  bcast_S16x2048x32x1_S16x2048x32x128_0_1_2_3 : S16x2048x32x1.BroadcastsInDim S16x2048x32x128 (![0, 1, 2, 3] : Fin 4 → Fin S16x2048x32x128.rank)
  bcast_S1x1x32x128_S16x2048x32x128_0_1_2_3 : S1x1x32x128.BroadcastsInDim S16x2048x32x128 (![0, 1, 2, 3] : Fin 4 → Fin S16x2048x32x128.rank)
  reducesTo_S16x2048x32x128_S16x2048x32_d3 : S16x2048x32x128.ReducesTo [3] S16x2048x32
  h_S_ : 0 < S_.numel
  bcast_S_S16x2048x32x1 : S_.BroadcastsInDim S16x2048x32x1 (![] : Fin 0 → Fin S16x2048x32x1.rank)
  bcast_S_S16x2048x32x128 : S_.BroadcastsInDim S16x2048x32x128 (![] : Fin 0 → Fin S16x2048x32x128.rank)

variable [Facts₀]

class Facts : Prop extends Facts₀ where

variable [Facts]
-- ==== Proof.FrameBits.lean ====
/-
  The kernel's program runs to the end, faults nowhere and leaves its argument arrays as they were;
  and what its result array holds afterwards.

  The program is forty host operations — row means of the weights and biases, the rows minus their
  means, their products with the scale, and the three per-variable second moments stacked in one
  3 × 32 array — followed by one launch over a 16 × 4 grid of points.  At a point the launch hands the
  body one 1 × 512 × 32 block of `x`, the three 32 × 128 parameter arrays, the 3 × 32 moments, and a
  1 × 512 × 32 × 128 output buffer; the body reads the five inputs whole (the moments row by row), reads
  the output buffer once without using what it read, and overwrites the output buffer whole with one
  pure function of what it loaded.  So after the body the output buffer holds that function of the
  input blocks, the input buffers are as they were, and the launch writes the output block back: the
  result array ends as the blocks the points wrote, every other array as the launch found it.
-/
import proofs.«150935_j9199819948534_2_alg».proof.Proof.Gen.Kernel.Launch
import proofs.«150935_j9199819948534_2_alg».proof.Proof.Gen.Kernel.Skeleton
import proofs.«150935_j9199819948534_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core `c`'s arrays when the launch is entered: the memory after the forty host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the launch finds each as the program was given it. -/
theorem V_arg (a : Ref sig .tc) (ha : a = main_arg0 ∨ a = main_arg1 ∨ a = main_arg2 ∨ a = main_arg3 ∨ a = main_arg4)
    (c : Dev nD) : V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.nary_writes, Finset.mem_singleton]
    rcases ha with h | h | h | h | h <;> subst h <;>
    · repeat' apply And.intro
      all_goals exact StableHlo.devRef_ne_of_ne (by decide)))

/-! ## A window's block at a point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds the window's block at every point, whether the launch fetched it
    there or not (an unfetched window's block index has not moved since the point before), for any proof data
    whose arrays are the launch-entry contents and whose body leaves the block in place. One statement per input
    window: the block's index type is the window's own. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

abbrev rX : Rect S1x512x32 := Rect.unit (s := S1x512x32) ![0, 0, 0] S1x512x32.size inb_S1x512x32_S1x512x32_0_0_0
abbrev rP : Rect S32x128 := Rect.unit (s := S32x128) ![0, 0] S32x128.size inb_S32x128_S32x128_0_0
abbrev rM0 : Rect S3x32 := Rect.unit (s := S3x32) ![0, 0] S1x32.size inb_S3x32_S1x32_0_0
abbrev rM1 : Rect S3x32 := Rect.unit (s := S3x32) ![1, 0] S1x32.size inb_S3x32_S1x32_1_0
abbrev rM2 : Rect S3x32 := Rect.unit (s := S3x32) ![2, 0] S1x32.size inb_S3x32_S1x32_2_0
abbrev rO : Rect S1x512x32x128 := Rect.unit (s := S1x512x32x128) ![0, 0, 0, 0] S1x512x32x128.size inb_S1x512x32x128_S1x512x32x128_0_0_0_0

/-! ## What the body leaves in the output buffer -/

/-- The output buffer after the body, from the five input blocks: its one store, of the body's arithmetic on
    what the loads read. -/
def outBuf (x0 : Vec F S1x512x32 .f32) (x1 x2 x3 : Vec F S32x128 .f32) (x4 : Vec F S3x32 .f32) : Vec F S1x512x32x128 .f32 :=
  View.canon [⟨rO, k0_pay1 (k0_pay2 (View.ld x0 rX) (View.ld x1 rP) (View.ld x2 rP) (View.ld x4 rM0) (View.ld x4 rM1) (View.ld x4 rM2))
    (k0_pay3 (View.ld x3 rP))⟩]

/-- The one store is of the whole buffer. -/
theorem outCover (p0 : Vec F S1x512x32x128 .f32) (y : S1x512x32x128.Idx) :
    ∃ pc ∈ ([⟨rO, p0⟩] : List (View.Piece (Elt F) S1x512x32x128 .f32)), y ∈ pc.1.set :=
  View.cover_of_tiled [⟨rO, p0⟩] S1x512x32x128.size (by rfl) y

/-! ## The body's triple -/

set_option maxHeartbeats 4000000 in
/-- The body on whole buffers — the five inputs' at contents `x0 … x4`, the output's at anything — runs to the
    continuation with the inputs' as they were and the output's at `outBuf` of the inputs'. -/
theorem sound_kernel (c : Dev nD) (E : Set ℕ) (i : grid0.Coords)
    (arg2 : Memref sig .tc .vmem S1x512x32 .f32) (harg2 : arg2.IsWhole) (arg3 : Memref sig .tc .vmem S32x128 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S3x32 .f32) (harg6 : arg6.IsWhole) (arg7 : Memref sig .tc .vmem S1x512x32x128 .f32) (harg7 : arg7.IsWhole)
    (x0 : Vec F S1x512x32 .f32) (x1 x2 x3 : Vec F S32x128 .f32) (x4 : Vec F S3x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBuf x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outCover _)

/-! ## The launch's proof data -/

/-- On core `c`: the arrays as the launch finds them; after the body at point `t` each input's buffer at its
    block and the output's at `outBuf` of the input blocks; nothing carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBuf (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBuf (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what the launch
    carries passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program ends; afterwards every array
    of the launch holds what the proof data says and every other array what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the result array named and the argument arrays read: `x` and the shift are inputs of the
    launch (left as found), the other three arguments no array of the launch (left as found), and the launch found
    each argument as the program was given it. -/
theorem run_named : θ_run defs (onTc (τ := τ) (main (F := F))) ⟨m, fun _ => 0, ρ⟩ (fun r => ∀ c : Dev nD,
      r.2.mem ((c.tc : Thread nD τ).loc main_v30) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_arg m main_arg0 (.inl rfl) c))),
      ((h c).2 main_arg1 (Pipeline.mem_restRefs_of main_arg1 (by decide) (by decide))).trans (V_arg m main_arg1 (.inr (.inl rfl)) c),
      ((h c).2 main_arg2 (Pipeline.mem_restRefs_of main_arg2 (by decide) (by decide))).trans (V_arg m main_arg2 (.inr (.inr (.inl rfl))) c),
      ((h c).2 main_arg3 (Pipeline.mem_restRefs_of main_arg3 (by decide) (by decide))).trans (V_arg m main_arg3 (.inr (.inr (.inr (.inl rfl)))) c),
      ((h c).1 3).trans (((dats m 0 c).arrAt_in 3 rfl _).trans ((A_eq m c 3).trans (V_arg m main_arg4 (.inr (.inr (.inr (.inr rfl)))) c)))⟩)
    (run_main m ρ)

/-- The frame: the program ends and its five argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.Kernel.Hand

end
-- ==== Proof.FrameIdeal.lean ====
/-
  The kernel's program runs to the end, faults nowhere and leaves its argument arrays as they were;
  and what its result array holds afterwards.

  The program is forty host operations — row means of the weights and biases, the rows minus their
  means, their products with the scale, and the three per-variable second moments stacked in one
  3 × 32 array — followed by one launch over a 16 × 4 grid of points.  At a point the launch hands the
  body one 1 × 512 × 32 block of `x`, the three 32 × 128 parameter arrays, the 3 × 32 moments, and a
  1 × 512 × 32 × 128 output buffer; the body reads the five inputs whole (the moments row by row), reads
  the output buffer once without using what it read, and overwrites the output buffer whole with one
  pure function of what it loaded.  So after the body the output buffer holds that function of the
  input blocks, the input buffers are as they were, and the launch writes the output block back: the
  result array ends as the blocks the points wrote, every other array as the launch found it.
-/
import proofs.«150935_j9199819948534_2_alg».proof.Proof.Gen.KernelIdeal.Launch
import proofs.«150935_j9199819948534_2_alg».proof.Proof.Gen.KernelIdeal.Skeleton
import proofs.«150935_j9199819948534_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- Core `c`'s arrays when the launch is entered: the memory after the forty host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the launch finds each as the program was given it. -/
theorem V_arg (a : Ref sig .tc) (ha : a = main_arg0 ∨ a = main_arg1 ∨ a = main_arg2 ∨ a = main_arg3 ∨ a = main_arg4)
    (c : Dev nD) : V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.nary_writes, Finset.mem_singleton]
    rcases ha with h | h | h | h | h <;> subst h <;>
    · repeat' apply And.intro
      all_goals exact StableHlo.devRef_ne_of_ne (by decide)))

/-! ## A window's block at a point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds the window's block at every point, whether the launch fetched it
    there or not (an unfetched window's block index has not moved since the point before), for any proof data
    whose arrays are the launch-entry contents and whose body leaves the block in place. One statement per input
    window: the block's index type is the window's own. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's rectangles -/

abbrev rX : Rect S1x512x32 := Rect.unit (s := S1x512x32) ![0, 0, 0] S1x512x32.size inb_S1x512x32_S1x512x32_0_0_0
abbrev rP : Rect S32x128 := Rect.unit (s := S32x128) ![0, 0] S32x128.size inb_S32x128_S32x128_0_0
abbrev rM0 : Rect S3x32 := Rect.unit (s := S3x32) ![0, 0] S1x32.size inb_S3x32_S1x32_0_0
abbrev rM1 : Rect S3x32 := Rect.unit (s := S3x32) ![1, 0] S1x32.size inb_S3x32_S1x32_1_0
abbrev rM2 : Rect S3x32 := Rect.unit (s := S3x32) ![2, 0] S1x32.size inb_S3x32_S1x32_2_0
abbrev rO : Rect S1x512x32x128 := Rect.unit (s := S1x512x32x128) ![0, 0, 0, 0] S1x512x32x128.size inb_S1x512x32x128_S1x512x32x128_0_0_0_0

/-! ## What the body leaves in the output buffer -/

/-- The output buffer after the body, from the five input blocks: its one store, of the body's arithmetic on
    what the loads read. -/
def outBuf (x0 : Vec F S1x512x32 .f32) (x1 x2 x3 : Vec F S32x128 .f32) (x4 : Vec F S3x32 .f32) : Vec F S1x512x32x128 .f32 :=
  View.canon [⟨rO, k0_pay1 (k0_pay2 (View.ld x0 rX) (View.ld x1 rP) (View.ld x2 rP) (View.ld x4 rM0) (View.ld x4 rM1) (View.ld x4 rM2))
    (k0_pay3 (View.ld x3 rP))⟩]

/-- The one store is of the whole buffer. -/
theorem outCover (p0 : Vec F S1x512x32x128 .f32) (y : S1x512x32x128.Idx) :
    ∃ pc ∈ ([⟨rO, p0⟩] : List (View.Piece (Elt F) S1x512x32x128 .f32)), y ∈ pc.1.set :=
  View.cover_of_tiled [⟨rO, p0⟩] S1x512x32x128.size (by rfl) y

/-! ## The body's triple -/

set_option maxHeartbeats 4000000 in
/-- The body on whole buffers — the five inputs' at contents `x0 … x4`, the output's at anything — runs to the
    continuation with the inputs' as they were and the output's at `outBuf` of the inputs'. -/
theorem sound_kernel (c : Dev nD) (E : Set ℕ) (i : grid0.Coords)
    (arg2 : Memref sig .tc .vmem S1x512x32 .f32) (harg2 : arg2.IsWhole) (arg3 : Memref sig .tc .vmem S32x128 .f32) (harg3 : arg3.IsWhole)
    (arg4 : Memref sig .tc .vmem S32x128 .f32) (harg4 : arg4.IsWhole) (arg5 : Memref sig .tc .vmem S32x128 .f32) (harg5 : arg5.IsWhole)
    (arg6 : Memref sig .tc .vmem S3x32 .f32) (harg6 : arg6.IsWhole) (arg7 : Memref sig .tc .vmem S1x512x32x128 .f32) (harg7 : arg7.IsWhole)
    (x0 : Vec F S1x512x32 .f32) (x1 x2 x3 : Vec F S32x128 .f32) (x4 : Vec F S3x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBuf x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outCover _)

/-! ## The launch's proof data -/

/-- On core `c`: the arrays as the launch finds them; after the body at point `t` each input's buffer at its
    block and the output's at `outBuf` of the input blocks; nothing carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBuf (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBuf (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; what the launch
    carries passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of the program ends; afterwards every array
    of the launch holds what the proof data says and every other array what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the result array named and the argument arrays read: `x` and the shift are inputs of the
    launch (left as found), the other three arguments no array of the launch (left as found), and the launch found
    each argument as the program was given it. -/
theorem run_named : θ_run defs (onTc (τ := τ) (main (F := F))) ⟨m, fun _ => 0, ρ⟩ (fun r => ∀ c : Dev nD,
      r.2.mem ((c.tc : Thread nD τ).loc main_v30) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 5,
      ((h c).1 0).trans (((dats m 0 c).arrAt_in 0 rfl _).trans ((A_eq m c 0).trans (V_arg m main_arg0 (.inl rfl) c))),
      ((h c).2 main_arg1 (Pipeline.mem_restRefs_of main_arg1 (by decide) (by decide))).trans (V_arg m main_arg1 (.inr (.inl rfl)) c),
      ((h c).2 main_arg2 (Pipeline.mem_restRefs_of main_arg2 (by decide) (by decide))).trans (V_arg m main_arg2 (.inr (.inr (.inl rfl))) c),
      ((h c).2 main_arg3 (Pipeline.mem_restRefs_of main_arg3 (by decide) (by decide))).trans (V_arg m main_arg3 (.inr (.inr (.inr (.inl rfl)))) c),
      ((h c).1 3).trans (((dats m 0 c).arrAt_in 3 rfl _).trans ((A_eq m c 3).trans (V_arg m main_arg4 (.inr (.inr (.inr (.inr rfl)))) c)))⟩)
    (run_main m ρ)

/-- The frame: the program ends and its five argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_named m ρ)

end Cert.KernelIdeal.Hand

end
-- ==== Proof.Spec.lean ====
/-
  One output entry of the layer, as each program computes it, over the extended reals.

  For a batch entry, a position and a variable, the layer takes the scalar `x`, the variable's
  rows `w`, `b` (128 entries each) and the entries `g`, `be` of the scale and the shift at the lane
  `k`, and returns  relu (normalise (x · w + b) · g + be)  where the normalisation subtracts the
  row's mean and multiplies by the reciprocal square root of its variance plus a small constant.

  `refAt` is that text read literally: the mean and the variance are sums over the 128 lanes of
  the row `x · w + b`.  `kerAt` is the rearranged form: the row minus its mean is affine in `x`,
  `x · dW + dB` with `dW = w − mean w`, `dB = b − mean b`, so its variance is the quadratic
  `a · x² + 2 c · x + d` with `a = mean (dW²)`, `c = mean (dW · dB)`, `d = mean (dB²)`, none of
  which depends on `x`; and the scale `g` is folded into `dW`, `dB`.
-/
import Idealize.ShloMosaic.PureOps.Ideal
import Mathlib.Algebra.BigOperators.Group.Finset.Basic

noncomputable section

namespace Cert.Spec

open Idealize.ShloMosaic

/-- The float words both programs spell: zero, 128, 2 and the variance's small constant. -/
abbrev zero : EReal := Ideal.ofBits .f32 0x00000000#32
abbrev n128 : EReal := Ideal.ofBits .f32 0x43000000#32
abbrev two : EReal := Ideal.ofBits .f32 0x40000000#32
abbrev eps : EReal := Ideal.ofBits .f32 0x3727C5AC#32

/-- The mean of a row of 128 entries as both programs take it: the sum from zero, divided by 128. -/
def mean (f : Fin 128 → EReal) : EReal := Ideal.div (zero + ∑ j : Fin 128, f j) n128

/-- The row `x · w + b` minus its mean, at lane `k`. -/
def centred (x : EReal) (w b : Fin 128 → EReal) (k : Fin 128) : EReal :=
  (x * w k + b k) - mean (fun j => x * w j + b j)

/-- The layer's entry at lane `k`, read literally. -/
def refAt (x : EReal) (w b : Fin 128 → EReal) (g be : EReal) (k : Fin 128) : EReal :=
  max (centred x w b k
        * Ideal.rsqrt (mean (fun j => centred x w b j * centred x w b j) + eps) * g + be) zero

/-- A row minus its own mean, at lane `k`. -/
def dev (w : Fin 128 → EReal) (k : Fin 128) : EReal := w k - mean w

/-- The layer's entry at lane `k`, in the rearranged form. -/
def kerAt (x : EReal) (w b : Fin 128 → EReal) (g be : EReal) (k : Fin 128) : EReal :=
  max (Ideal.rsqrt (((mean (fun j => dev w j * dev w j) * (x * x)
          + (two * mean (fun j => dev w j * dev b j)) * x)
          + mean (fun j => dev b j * dev b j)) + eps)
        * (x * (g * dev w k) + g * dev b k) + be) zero

end Cert.Spec

end
-- ==== Proof.PayIdx.lean ====
/-
  The body's arithmetic read at one entry of the output block.

  The body holds a 512 × 32 block of `x` (one batch entry, 512 positions, 32 variables), the 32 × 128
  arrays `dWp`, `dBp`, `beta` and the three moment rows `a`, `c`, `d` (32 entries each).  Every
  operation is either entrywise or a change of layout that inserts unit axes and repeats along them,
  so the output entry at position `r`, variable `v`, lane `k` depends on `x (r, v)`, on the three
  moments at `v` and on the three parameters at `(v, k)` only:
    max (rsqrt (a v · (x·x) + (2 · c v) · x + d v + eps) · (x · dWp (v,k) + dBp (v,k)) + beta (v,k)) 0.
-/
import proofs.«150935_j9199819948534_2_alg».proof.Proof.Gen.KernelIdeal.Skeleton
import proofs.«150935_j9199819948534_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PayIdx

open Cert.KernelIdeal Cert.KernelIdeal.Gen Idealize.ShloMosaic Idealize.ShloMosaic.ValueIdx

variable {α : Type}

/-! ## The three layout forms the library does not spell -/

/-- A `[512, 32]` array cast to `[512, 32, 1]` reads, at `(r, v, u)`, the operand at `(r, v)`. -/
theorem cast_trailing_unit (x : S512x32.Idx → α) (h : S512x32.ShapeCasts S512x32x1) (r : Fin 512) (v : Fin 32) (u : Fin 1) :
    shapeCast S512x32x1 x h (ix3 r v u) = x (ix2 r v) :=
  shapeCast_apply x h _ _ (by
    have hu : u.val = 0 := by omega
    rw [Shape.rowMajor_val_three, Shape.rowMajor_val_two]
    show r.val * 32 + v.val = (r.val * 32 + v.val) * 1 + u.val
    omega)

/-- A `[512, 32, 1]` array repeated along its last axis to `[512, 32, 128]` reads, at `(r, v, k)`, the operand at `(r, v, 0)`. -/
theorem bcast_lanes (x : S512x32x1.Idx → α) (h : S512x32x1.Broadcasts S512x32x128) (r : Fin 512) (v : Fin 32) (k : Fin 128) :
    broadcastTo S512x32x128 x h (ix3 r v k) = x (ix3 r v (0 : Fin 1)) := by
  refine broadcastTo_apply x h (ix3 r v k) (ix3 r v (0 : Fin 1)) fun ax => ?_
  match ax with
  | ⟨0, _⟩ => rfl
  | ⟨1, _⟩ => rfl
  | ⟨2, _⟩ => rfl

/-- A `[1, 32, 128]` array repeated along its first axis to `[512, 32, 128]` reads, at `(r, v, k)`, the operand at `(0, v, k)`. -/
theorem bcast_rows (x : S1x32x128.Idx → α) (h : S1x32x128.Broadcasts S512x32x128) (r : Fin 512) (v : Fin 32) (k : Fin 128) :
    broadcastTo S512x32x128 x h (ix3 r v k) = x (ix3 (0 : Fin 1) v k) := by
  refine broadcastTo_apply x h (ix3 r v k) (ix3 (0 : Fin 1) v k) fun ax => ?_
  match ax with
  | ⟨0, _⟩ => rfl
  | ⟨1, _⟩ => rfl
  | ⟨2, _⟩ => rfl

/-! ## The layout chains of the body, read at coordinates -/

/-- The block of `x` with its leading unit axis dropped. -/
theorem xblock_apply (x0 : S1x512x32.Idx → α) (h : S1x512x32.ShapeCasts S512x32) (r : Fin 512) (v : Fin 32) :
    shapeCast S512x32 x0 h (ix2 r v) = x0 (ix3 (0 : Fin 1) r v) :=
  shapeCast_1ab_ab_apply x0 h r v

/-- A moment row, taken as a vector, put back as a row and repeated over the 512 positions: at `(r, v)` the row's entry `v`. -/
theorem moment_apply (m0 : S1x32.Idx → α) (h1 : S1x32.ShapeCasts S32) (h2 : S32.ShapeCasts S1x32) (h3 : S1x32.Broadcasts S512x32)
    (r : Fin 512) (v : Fin 32) :
    broadcastTo S512x32 (shapeCast S1x32 (shapeCast S32 m0 h1) h2) h3 (ix2 r v) = m0 (ix2 (0 : Fin 1) v) :=
  (broadcastTo_1b_ab_apply _ h3 r v).trans ((shapeCast_a_1a_apply _ h2 (0 : Fin 1) v).trans (shapeCast_1a_a_apply m0 h1 v))

/-- A moment row as a vector put back as a row, at `(u, v)`: the row's entry `v`. -/
theorem momentRow_apply (m0 : S1x32.Idx → α) (h1 : S1x32.ShapeCasts S32) (h2 : S32.ShapeCasts S1x32) (u : Fin 1) (v : Fin 32) :
    shapeCast S1x32 (shapeCast S32 m0 h1) h2 (ix2 u v) = m0 (ix2 (0 : Fin 1) v) :=
  (shapeCast_a_1a_apply _ h2 u v).trans (shapeCast_1a_a_apply m0 h1 v)

/-- A `[512, 32]` array given a trailing unit axis and repeated along the 128 lanes: at `(r, v, k)` the operand at `(r, v)`. -/
theorem lanes_apply (y : S512x32.Idx → α) (h : S512x32.ShapeCasts S512x32x1) (h' : S512x32x1.Broadcasts S512x32x128)
    (r : Fin 512) (v : Fin 32) (k : Fin 128) :
    broadcastTo S512x32x128 (shapeCast S512x32x1 y h) h' (ix3 r v k) = y (ix2 r v) :=
  (bcast_lanes _ h' r v k).trans (cast_trailing_unit y h r v (0 : Fin 1))

/-- A `[32, 128]` parameter array given a leading unit axis and repeated over the 512 positions: at `(r, v, k)` the
    operand at `(v, k)`. -/
theorem param_apply (p : S32x128.Idx → α) (h : S32x128.ShapeCasts S1x32x128) (h' : S1x32x128.Broadcasts S512x32x128)
    (r : Fin 512) (v : Fin 32) (k : Fin 128) :
    broadcastTo S512x32x128 (shapeCast S1x32x128 p h) h' (ix3 r v k) = p (ix2 v k) :=
  (bcast_rows _ h' r v k).trans (shapeCast_ab_1ab_apply p h (0 : Fin 1) v k)

/-- The reciprocal square root of a vector is entrywise. -/
theorem rsqrt_apply {s : Shape} {φ : FTy} (a : FVec Ideal s φ) (i : s.Idx) : rsqrt a i = Ideal.rsqrt (a i) := rfl

/-! ## The body's value at an entry -/

/-- The output block's entry at position `r`, variable `v`, lane `k`, from what the seven loads read. -/
theorem pay_apply (x0 : Vec Ideal S1x512x32 .f32) (x1 x2 x3 : Vec Ideal S32x128 .f32) (m0 m1 m2 : Vec Ideal S1x32 .f32)
    (u : Fin 1) (r : Fin 512) (v : Fin 32) (k : Fin 128) :
    k0_pay1 (k0_pay2 x0 x1 x2 m0 m1 m2) (k0_pay3 x3) (ix4 u r v k)
      = max (Ideal.rsqrt (((m0 (ix2 (0 : Fin 1) v) * (x0 (ix3 (0 : Fin 1) r v) * x0 (ix3 (0 : Fin 1) r v))
              + (Spec.two * m1 (ix2 (0 : Fin 1) v)) * x0 (ix3 (0 : Fin 1) r v))
              + m2 (ix2 (0 : Fin 1) v)) + Spec.eps)
            * (x0 (ix3 (0 : Fin 1) r v) * x1 (ix2 v k) + x2 (ix2 v k)) + x3 (ix2 v k)) Spec.zero := by
  unfold k0_pay1 k0_pay2 k0_pay3
  refine (shapeCast_abc_1abc_apply _ _ u r v k).trans ?_
  simp only [maximumf_apply, addf_apply, mulf_apply, broadcast_apply, rsqrt_apply, lanes_apply, param_apply,
    moment_apply, momentRow_apply, xblock_apply, shapeCast_self, broadcastTo_1b_ab_apply]
  rfl

end Cert.PayIdx

end
-- ==== Proof.KerValue.lean ====
/-
  The kernel's result array after the run, as one function of the five arrays the launch stages.

  Point `t` of the 16 × 4 grid works on batch entry `t / 4` and the 512 positions from `512 · (t % 4)`:
  its block of `x` and its output block have the same first two block coordinates, and the parameter
  arrays and the moments are taken whole at every point.  So the entry the body writes at local position
  `(u, r, v, k)` of its block is the entry-wise formula evaluated at the array index that block position
  embeds to, and since the 64 output blocks tile the result array, the array ends as that formula everywhere.
-/
import proofs.«150935_j9199819948534_2_alg».proof.Proof.FrameIdeal
import proofs.«150935_j9199819948534_2_alg».proof.Proof.PayIdx
import Idealize.ShloMosaic.Lib.Pipeline.Value

set_option maxRecDepth 16384

noncomputable section

namespace Cert.KerValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result array as a function of `x`, the scaled deviations `dWp`, `dBp`, the shift and the moments, entry by entry. -/
def arr (X : S16x2048x32.Idx → EReal) (P1 P2 P3 : S32x128.Idx → EReal) (M : S3x32.Idx → EReal) : S16x2048x32x128.Idx → EReal :=
  fun i => max (Ideal.rsqrt (((M (ix2 (0 : Fin 3) (i 2)) * (X (ix3 (i 0) (i 1) (i 2)) * X (ix3 (i 0) (i 1) (i 2)))
              + (Spec.two * M (ix2 (1 : Fin 3) (i 2))) * X (ix3 (i 0) (i 1) (i 2)))
              + M (ix2 (2 : Fin 3) (i 2))) + Spec.eps)
            * (X (ix3 (i 0) (i 1) (i 2)) * P1 (ix2 (i 2) (i 3)) + P2 (ix2 (i 2) (i 3))) + P3 (ix2 (i 2) (i 3))) Spec.zero

/-- One entry of the body's store is `arr` at an array index `I`, once each load's entry is the staged array's at
    `I`'s coordinates. -/
theorem entry_eq (X : S16x2048x32.Idx → EReal) (P1 P2 P3 : S32x128.Idx → EReal) (M : S3x32.Idx → EReal)
    (x0 : Vec Ideal S1x512x32 .f32) (x1 x2 x3 : Vec Ideal S32x128 .f32) (m0 m1 m2 : Vec Ideal S1x32 .f32)
    (I : S16x2048x32x128.Idx) (u : Fin 1) (r : Fin 512) (v : Fin 32) (k : Fin 128)
    (hx : x0 (ix3 (0 : Fin 1) r v) = X (ix3 (I 0) (I 1) (I 2)))
    (h1 : x1 (ix2 v k) = P1 (ix2 (I 2) (I 3))) (h2 : x2 (ix2 v k) = P2 (ix2 (I 2) (I 3))) (h3 : x3 (ix2 v k) = P3 (ix2 (I 2) (I 3)))
    (hm0 : m0 (ix2 (0 : Fin 1) v) = M (ix2 (0 : Fin 3) (I 2))) (hm1 : m1 (ix2 (0 : Fin 1) v) = M (ix2 (1 : Fin 3) (I 2)))
    (hm2 : m2 (ix2 (0 : Fin 1) v) = M (ix2 (2 : Fin 3) (I 2))) :
    k0_pay1 (k0_pay2 x0 x1 x2 m0 m1 m2) (k0_pay3 x3) (ix4 u r v k) = arr X P1 P2 P3 M I := by
  rw [PayIdx.pay_apply]
  unfold arr
  rw [hx, h1, h2, h3, hm0, hm1, hm2]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed block indices, decided over the grid: the block of `x` moves with the output block on the batch and
    position axes; every other block coordinate is zero; the output's block coordinates stay in range. -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0 ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) ≤ 15 ∧ win0_5.index t (1 : Fin 4) ≤ 3 :=
  (by decide +kernel : ∀ t : Fin grid0.N, _)

/-- Every block of the result array is some point's. -/
theorem idx_onto : ∀ (q0 : Fin 16) (q1 : Fin 4), ∃ t : Fin cfg0.N, win0_5.index t = ![q0.val, q1.val, 0, 0] :=
  (by decide +kernel : ∀ (q0 : Fin 16) (q1 : Fin 4), ∃ t : Fin grid0.N, win0_5.index t = ![q0.val, q1.val, 0, 0])

set_option maxHeartbeats 2000000 in
/-- What point `t` writes back is block `t` of `arr` of the staged arrays. -/
theorem flushed_eq (c : Dev nD) (t : Fin cfg0.N) :
    (dats m 0 c).flushed 5 t = ((cfg0.win 5).blk t).view.read (Elt Ideal)
      (arr (V m c main_arg0) (V m c main_v12) (V m c main_v13) (V m c main_arg4) (V m c main_v29)) := by
  show (cfg0.win 5).cut (grid0.coords t) ((dats m 0 c).after 5 t) = _
  rw [after_5]
  unfold outBuf
  rw [View.canon_unit_zero hz4]
  simp only [View.ld_unit_zero (S := S1x512x32) hz3, View.ld_unit_zero (S := S32x128) hz2]
  obtain ⟨e0, e1, e2, e3, e4, e5, e6, e7, e8, e9, e10, e11, e12, e13, e14⟩ := idx_facts t
  have key : ∀ j : S1x512x32x128.Idx,
      k0_pay1 (k0_pay2 (iblk m c 0 t) (iblk m c 1 t) (iblk m c 2 t) (View.ld (iblk m c 4 t) rM0) (View.ld (iblk m c 4 t) rM1)
        (View.ld (iblk m c 4 t) rM2)) (k0_pay3 (iblk m c 3 t)) j
      = arr (V m c main_arg0) (V m c main_v12) (V m c main_v13) (V m c main_arg4) (V m c main_v29) (((cfg0.win 5).blk t).view.emb j) := by
    intro j
    obtain ⟨u, r, v, k, rfl⟩ : ∃ (u : Fin 1) (r : Fin 512) (v : Fin 32) (k : Fin 128), j = ix4 u r v k := ⟨j 0, j 1, j 2, j 3, eq_ix4 j⟩
    have hu : u.val = 0 := by omega
    refine entry_eq _ _ _ _ _ _ _ _ _ _ _ _ (((cfg0.win 5).blk t).view.emb (ix4 u r v k)) u r v k ?_ ?_ ?_ ?_ ?_ ?_ ?_
    · show V m c main_arg0 (((cfg0.win 0).blk t).view.emb (ix3 (0 : Fin 1) r v)) = _
      refine congrArg _ (funext fun a => Fin.ext ?_)
      match a with
      | ⟨0, _⟩ => show win0_0.index t (0 : Fin 3) * 1 + 1 * 0 = win0_5.index t (0 : Fin 4) * 1 + 1 * u.val; omega
      | ⟨1, _⟩ => show win0_0.index t (1 : Fin 3) * 512 + 1 * r.val = win0_5.index t (1 : Fin 4) * 512 + 1 * r.val; omega
      | ⟨2, _⟩ => show win0_0.index t (2 : Fin 3) * 32 + 1 * v.val = win0_5.index t (2 : Fin 4) * 32 + 1 * v.val; omega
    · show V m c main_v12 (((cfg0.win 1).blk t).view.emb (ix2 v k)) = _
      refine congrArg _ (funext fun a => Fin.ext ?_)
      match a with
      | ⟨0, _⟩ => show win0_1.index t (0 : Fin 2) * 32 + 1 * v.val = win0_5.index t (2 : Fin 4) * 32 + 1 * v.val; omega
      | ⟨1, _⟩ => show win0_1.index t (1 : Fin 2) * 128 + 1 * k.val = win0_5.index t (3 : Fin 4) * 128 + 1 * k.val; omega
    · show V m c main_v13 (((cfg0.win 2).blk t).view.emb (ix2 v k)) = _
      refine congrArg _ (funext fun a => Fin.ext ?_)
      match a with
      | ⟨0, _⟩ => show win0_2.index t (0 : Fin 2) * 32 + 1 * v.val = win0_5.index t (2 : Fin 4) * 32 + 1 * v.val; omega
      | ⟨1, _⟩ => show win0_2.index t (1 : Fin 2) * 128 + 1 * k.val = win0_5.index t (3 : Fin 4) * 128 + 1 * k.val; omega
    · show V m c main_arg4 (((cfg0.win 3).blk t).view.emb (ix2 v k)) = _
      refine congrArg _ (funext fun a => Fin.ext ?_)
      match a with
      | ⟨0, _⟩ => show win0_3.index t (0 : Fin 2) * 32 + 1 * v.val = win0_5.index t (2 : Fin 4) * 32 + 1 * v.val; omega
      | ⟨1, _⟩ => show win0_3.index t (1 : Fin 2) * 128 + 1 * k.val = win0_5.index t (3 : Fin 4) * 128 + 1 * k.val; omega
    · show V m c main_v29 (((cfg0.win 4).blk t).view.emb (rM0.emb (ix2 (0 : Fin 1) v))) = _
      refine congrArg _ (funext fun a => Fin.ext ?_)
      match a with
      | ⟨0, _⟩ => show win0_4.index t (0 : Fin 2) * 3 + 1 * (0 + 1 * 0) = 0; omega
      | ⟨1, _⟩ => show win0_4.index t (1 : Fin 2) * 32 + 1 * (0 + 1 * v.val) = win0_5.index t (2 : Fin 4) * 32 + 1 * v.val; omega
    · show V m c main_v29 (((cfg0.win 4).blk t).view.emb (rM1.emb (ix2 (0 : Fin 1) v))) = _
      refine congrArg _ (funext fun a => Fin.ext ?_)
      match a with
      | ⟨0, _⟩ => show win0_4.index t (0 : Fin 2) * 3 + 1 * (1 + 1 * 0) = 1; omega
      | ⟨1, _⟩ => show win0_4.index t (1 : Fin 2) * 32 + 1 * (0 + 1 * v.val) = win0_5.index t (2 : Fin 4) * 32 + 1 * v.val; omega
    · show V m c main_v29 (((cfg0.win 4).blk t).view.emb (rM2.emb (ix2 (0 : Fin 1) v))) = _
      refine congrArg _ (funext fun a => Fin.ext ?_)
      match a with
      | ⟨0, _⟩ => show win0_4.index t (0 : Fin 2) * 3 + 1 * (2 + 1 * 0) = 2; omega
      | ⟨1, _⟩ => show win0_4.index t (1 : Fin 2) * 32 + 1 * (0 + 1 * v.val) = win0_5.index t (2 : Fin 4) * 32 + 1 * v.val; omega
  exact funext key

/-- An index of the result array is in point `t`'s block iff each coordinate is in the block's range on its axis. -/
theorem mem_blk (t : Fin cfg0.N) (i : S16x2048x32x128.Idx) :
    i ∈ ((cfg0.win 5).blk t).view.set ↔ ∀ a : Fin 4, win0_5.index t a * S1x512x32x128.size a ≤ (i a).val
      ∧ (i a).val < win0_5.index t a * S1x512x32x128.size a + S1x512x32x128.size a := by
  show i ∈ ((View.whole main_v30).slice (win0_5.rect t)).set ↔ _
  rw [View.set_slice_whole, Rect.mem_set_unit]
  exact Iff.rfl

/-- The 64 output blocks tile the result array: the point that covers an index is the one at its batch entry and
    at its position divided by 512. -/
theorem cover (i : S16x2048x32x128.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 32 := (i 2).isLt
  have hi3 : (i 3).val < 128 := (i 3).isLt
  obtain ⟨t, ht⟩ := idx_onto ⟨(i 0).val, by omega⟩ ⟨(i 1).val / 512, by omega⟩
  have q0 : win0_5.index t (0 : Fin 4) = (i 0).val := congrFun ht 0
  have q1 : win0_5.index t (1 : Fin 4) = (i 1).val / 512 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 512 ≤ (i 1).val ∧ (i 1).val < win0_5.index t (1 : Fin 4) * 512 + 512; omega
  | ⟨2, _⟩ => show win0_5.index t (2 : Fin 4) * 32 ≤ (i 2).val ∧ (i 2).val < win0_5.index t (2 : Fin 4) * 32 + 32; omega
  | ⟨3, _⟩ => show win0_5.index t (3 : Fin 4) * 128 ≤ (i 3).val ∧ (i 3).val < win0_5.index t (3 : Fin 4) * 128 + 128; omega

/-- The result array after the run: `arr` of the staged arrays. -/
theorem final (c : Dev nD) : (dats m 0 c).arrAt 5 cfg0.N
    = arr (V m c main_arg0) (V m c main_v12) (V m c main_v13) (V m c main_arg4) (V m c main_v29) :=
  (dats m 0 c).arrAt_eq_of_cover 5 _ (fun t _ => flushed_eq m c t) cover

/-- The run, read: the result array at `arr` of the staged arrays, the arguments unchanged. -/
theorem run : θ_run defs (onTc (τ := τ) (main (F := Ideal))) ⟨m, fun _ => 0, ρ⟩ (fun r => ∀ c : Dev nD,
      r.2.mem ((c.tc : Thread nD τ).loc main_v30)
        = arr (V m c main_arg0) (V m c main_v12) (V m c main_v13) (V m c main_arg4) (V m c main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final m c), (h c).2⟩) (run_named m ρ)

end Cert.KerValue

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.HostArgs.lean ====
/-
  The five argument arrays of the program are written by no host operation: when the call is entered each holds
  what it held at launch.  Stated for any float instance.
-/
import proofs.«150935_j9199819948534_2_alg».proof.Proof.Gen.KernelIdeal.Launch
import Idealize.ShloMosaic.Lib.StableHlo.Run

noncomputable section

namespace Cert.HostArgs

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Core `c`'s buffers once the host operations before the call have run, from the launch contents `m`. -/
abbrev Vh (c : Dev nD) (b : Ref sig .tc) : Buf (Elt F) ((c : Thread nD τ).loc b) :=
  StableHlo.after (hostOps0 (F := F)) (fun b => m (c, b)) b

/-- No host operation writes `x`. -/
theorem Vh_main_arg0 (c : Dev nD) : Vh m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-- No host operation writes `W`. -/
theorem Vh_main_arg1 (c : Dev nD) : Vh m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-- No host operation writes `b`. -/
theorem Vh_main_arg2 (c : Dev nD) : Vh m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-- No host operation writes `gamma`. -/
theorem Vh_main_arg3 (c : Dev nD) : Vh m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-- No host operation writes `beta`. -/
theorem Vh_main_arg4 (c : Dev nD) : Vh m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

end Cert.HostArgs

end
-- ==== Proof.HostSide.lean ====
/-
  The host operations before the call, read at the ideal values.

  Before the call the host computes, from the weight rows `W`, the bias rows `b` and the scale `gamma`
  (each 32 rows of 128 lanes): the row means of `W` and of `b` (a sum from zero along the lanes, divided by 128),
  the deviations `dW = W − mean W`, `dB = b − mean b` (each row minus its own mean), the two scaled deviations
  `gamma · dW`, `gamma · dB`, and the three row means of the products `dW · dW`, `dW · dB`, `dB · dB`, stacked as the rows
  0, 1, 2 of a 3 × 32 array.  This module states what those arrays hold, entry by entry, in the words of the shared
  specification (`Cert.Spec.mean`, `Cert.Spec.dev`), and that the arguments themselves are left as launched.

  The route: the buffers after the host operations are first the operations' composed term over the launch contents
  (three definitions name the stages: a row mean, a row minus its mean, the stack of three rows), and each stage is
  then read at an index.
-/
import proofs.«150935_j9199819948534_2_alg».proof.Proof.Gen.KernelIdeal.Launch
import proofs.«150935_j9199819948534_2_alg».proof.Proof.Spec
import proofs.«150935_j9199819948534_2_alg».proof.Proof.LibRowOps
import proofs.«150935_j9199819948534_2_alg».proof.Proof.HostArgs
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.HostSide

open Cert.KernelIdeal Cert.KernelIdeal.Gen Idealize.ShloMosaic Idealize.ShloMosaic.TcCoe Idealize.ShloMosaic.ValueIdx Idealize.SL.Sem
open Cert.HostArgs (Vh)

/-! ## The stages as functions of whole arrays -/

/-- The mean of each row: the row's sum from zero, divided by 128. -/
def rowMean (x : FVec Ideal S32x128 .f32) : FVec Ideal S32 .f32 :=
  Host.divf (Host.reduceAdd x (constant (F := Ideal) S_ .f32 0x00000000#32) reducesTo_S32x128_S32_d1 h_S_)
    (broadcastInDim S32 ![] bcast_S_S32 (constant (F := Ideal) S_ .f32 0x43000000#32))

/-- Each row minus its own mean: the means as a column, the column repeated along the lanes, subtracted. -/
def centre (x : FVec Ideal S32x128 .f32) : FVec Ideal S32x128 .f32 :=
  subf x (broadcastInDim S32x128 ![0, 1] bcast_S32x1_S32x128_0_1 (broadcastInDim S32x1 ![0] bcast_S32_S32x1_0 (rowMean x)))

/-- Three vectors of 32 entries stacked as the rows of a 3 × 32 array: each made a 1 × 32 row, the rows laid end to end. -/
def cat3 (a b d : FVec Ideal S32 .f32) : FVec Ideal S3x32 .f32 :=
  concatenate S3x32 0 [⟨S1x32, broadcastInDim S1x32 ![1] bcast_S32_S1x32_1 a⟩, ⟨S1x32, broadcastInDim S1x32 ![1] bcast_S32_S1x32_1 b⟩,
    ⟨S1x32, broadcastInDim S1x32 ![1] bcast_S32_S1x32_1 d⟩] concatenates_S1x32_S1x32_S1x32_S3x32_d0

/-! ## Each stage at an index -/

/-- The row mean at row `v` is the specification's mean of that row. -/
theorem rowMean_apply (x : FVec Ideal S32x128 .f32) (v : Fin 32) :
    rowMean x (ix1 v) = Cert.Spec.mean (fun j => x (ix2 v j)) := by
  unfold rowMean Cert.Spec.mean
  show Ideal.div (Ideal.hostReduceAdd reducesTo_S32x128_S32_d1 x (Ideal.ofBits .f32 0x00000000#32) (ix1 v))
      (broadcastInDim S32 ![] bcast_S_S32 (constant (F := Ideal) S_ .f32 0x43000000#32) (ix1 v)) = _
  rw [Cert.LibRowOps.hostReduceAdd_row_apply _ (by decide) x _ v, Cert.LibRowOps.broadcastInDim_scalar_apply]
  rfl

/-- A row minus its mean at `(v, k)` is the specification's deviation of row `v` at lane `k`. -/
theorem centre_apply (x : FVec Ideal S32x128 .f32) (v : Fin 32) (k : Fin 128) :
    centre x (ix2 v k) = Cert.Spec.dev (fun j => x (ix2 v j)) k := by
  unfold centre Cert.Spec.dev
  rw [subf_apply, Cert.LibRowOps.broadcastInDim_a1_ab_apply, Cert.LibRowOps.broadcastInDim_a_a1_apply, rowMean_apply]

/-- Row 0 of the stack is the first vector … -/
theorem cat3_apply0 (a b d : FVec Ideal S32 .f32) (v : Fin 32) : cat3 a b d (ix2 (0 : Fin 3) v) = a (ix1 v) := by
  unfold cat3
  rw [concatenate_apply_piece (0 : Fin S3x32.rank) _ _ (ix2 (0 : Fin 3) v) 0 (by show (0 : ℕ) < 3; decide) S1x32 _ rfl rfl 0 rfl
    (ix2 (0 : Fin 1) v) (fun b hb => by match b with | ⟨0, _⟩ => exact absurd rfl hb | ⟨1, _⟩ => rfl) rfl]
  exact Cert.LibRowOps.broadcastInDim_b_1b_apply _ a 0 v

/-- … row 1 the second (one row lies before it) … -/
theorem cat3_apply1 (a b d : FVec Ideal S32 .f32) (v : Fin 32) : cat3 a b d (ix2 (1 : Fin 3) v) = b (ix1 v) := by
  unfold cat3
  rw [concatenate_apply_piece (0 : Fin S3x32.rank) _ _ (ix2 (1 : Fin 3) v) 1 (by show (1 : ℕ) < 3; decide) S1x32 _ rfl rfl 1 rfl
    (ix2 (0 : Fin 1) v) (fun b hb => by match b with | ⟨0, _⟩ => exact absurd rfl hb | ⟨1, _⟩ => rfl) rfl]
  exact Cert.LibRowOps.broadcastInDim_b_1b_apply _ b 0 v

/-- … and row 2 the third (two rows lie before it). -/
theorem cat3_apply2 (a b d : FVec Ideal S32 .f32) (v : Fin 32) : cat3 a b d (ix2 (2 : Fin 3) v) = d (ix1 v) := by
  unfold cat3
  rw [concatenate_apply_piece (0 : Fin S3x32.rank) _ _ (ix2 (2 : Fin 3) v) 2 (by show (2 : ℕ) < 3; decide) S1x32 _ rfl rfl 2 rfl
    (ix2 (0 : Fin 1) v) (fun b hb => by match b with | ⟨0, _⟩ => exact absurd rfl hb | ⟨1, _⟩ => rfl) rfl]
  exact Cert.LibRowOps.broadcastInDim_b_1b_apply _ d 0 v

/-! ## The buffers after the host operations, as the stages of the launch contents -/

variable (m : (ℓ : Loc nD τ sig) → Buf (Elt Ideal) ℓ) (c : Dev nD)

/-- The weight rows, the bias rows and the scale as launched. -/
abbrev Wm : FVec Ideal S32x128 .f32 := m ((c : Thread nD τ).loc main_arg1)
abbrev Bm : FVec Ideal S32x128 .f32 := m ((c : Thread nD τ).loc main_arg2)
abbrev Gm : FVec Ideal S32x128 .f32 := m ((c : Thread nD τ).loc main_arg3)

/-- The weights' deviations: each row of `W` minus its mean. -/
theorem v8_eq : (Vh m c main_v8 : FVec Ideal S32x128 .f32) = centre (Wm m c) := by
  dsimp only [Vh, hostOps0]
  after_results_simp
  rfl

/-- The biases' deviations: each row of `b` minus its mean. -/
theorem v11_eq : (Vh m c main_v11 : FVec Ideal S32x128 .f32) = centre (Bm m c) := by
  dsimp only [Vh, hostOps0]
  after_results_simp
  rfl

/-- The first scaled array is the scale times the weight rows' deviations. -/
theorem v12_eq : (Vh m c main_v12 : FVec Ideal S32x128 .f32) = mulf (Gm m c) (centre (Wm m c)) := by
  dsimp only [Vh, hostOps0]
  after_results_simp
  rfl

/-- The second scaled array is the scale times the bias rows' deviations. -/
theorem v13_eq : (Vh m c main_v13 : FVec Ideal S32x128 .f32) = mulf (Gm m c) (centre (Bm m c)) := by
  dsimp only [Vh, hostOps0]
  after_results_simp
  rfl

/-- The first vector of means is the row mean of the product of the weights' deviations with themselves, as the buffers
    hold them.  The two deviations are complete after the first 18 operations, none of the later ones writes them: the
    buffers after those 18 are named once and the rest is run over them. -/
theorem v17_stage : (Vh m c main_v17 : FVec Ideal S32 .f32) = rowMean (mulf (Vh m c main_v8) (Vh m c main_v8)) := by
  dsimp only [Vh]
  rw [← List.take_append_drop 18 (hostOps0 (F := Ideal)), StableHlo.after_append]
  generalize StableHlo.after (List.take 18 (hostOps0 (F := Ideal))) (fun b => m (c, b)) = F18
  simp only [hostOps0, List.drop_succ_cons, List.drop_zero]
  after_results_simp
  rfl

/-- The second: the row mean of the weights' deviations times the biases'. -/
theorem v21_stage : (Vh m c main_v21 : FVec Ideal S32 .f32) = rowMean (mulf (Vh m c main_v8) (Vh m c main_v11)) := by
  dsimp only [Vh]
  rw [← List.take_append_drop 18 (hostOps0 (F := Ideal)), StableHlo.after_append]
  generalize StableHlo.after (List.take 18 (hostOps0 (F := Ideal))) (fun b => m (c, b)) = F18
  simp only [hostOps0, List.drop_succ_cons, List.drop_zero]
  after_results_simp
  rfl

/-- The third: the row mean of the biases' deviations times themselves. -/
theorem v25_stage : (Vh m c main_v25 : FVec Ideal S32 .f32) = rowMean (mulf (Vh m c main_v11) (Vh m c main_v11)) := by
  dsimp only [Vh]
  rw [← List.take_append_drop 18 (hostOps0 (F := Ideal)), StableHlo.after_append]
  generalize StableHlo.after (List.take 18 (hostOps0 (F := Ideal))) (fun b => m (c, b)) = F18
  simp only [hostOps0, List.drop_succ_cons, List.drop_zero]
  after_results_simp
  rfl

/-- The 3 × 32 array is the stack of those three vectors.  Only the last four operations matter (three vectors made
    rows, the rows laid end to end): the buffers after the first 36 are named once and the four are run over them. -/
theorem v29_stack : (Vh m c main_v29 : FVec Ideal S3x32 .f32) = cat3 (Vh m c main_v17) (Vh m c main_v21) (Vh m c main_v25) := by
  dsimp only [Vh]
  rw [← List.take_append_drop 36 (hostOps0 (F := Ideal)), StableHlo.after_append]
  generalize StableHlo.after (List.take 36 (hostOps0 (F := Ideal))) (fun b => m (c, b)) = F36
  simp only [hostOps0, List.drop_succ_cons, List.drop_zero]
  after_results_simp
  dsimp only [Matrix.cons_val_zero, Matrix.cons_val_one, Matrix.cons_val_two, Matrix.head_cons]
  repeat (first
    | rw [StableHlo.unary_result]
    | (rw [StableHlo.unary_result_ne]; rotate_left; decide))
  rfl

/-! ## The results: what the call's operand arrays hold, entry by entry -/

/-- The first scaled array at `(v, k)`: the scale's entry times the deviation of the weights' row `v` at lane `k`. -/
theorem v12_apply (v : Fin 32) (k : Fin 128) :
    (Vh m c main_v12 : FVec Ideal S32x128 .f32) (ix2 v k) = Gm m c (ix2 v k) * Cert.Spec.dev (fun j => Wm m c (ix2 v j)) k := by
  rw [v12_eq, mulf_apply, centre_apply]

/-- The second scaled array at `(v, k)`: the scale's entry times the deviation of the biases' row `v` at lane `k`. -/
theorem v13_apply (v : Fin 32) (k : Fin 128) :
    (Vh m c main_v13 : FVec Ideal S32x128 .f32) (ix2 v k) = Gm m c (ix2 v k) * Cert.Spec.dev (fun j => Bm m c (ix2 v j)) k := by
  rw [v13_eq, mulf_apply, centre_apply]

/-- Row 0 of the 3 × 32 array at `v`: the mean over the lanes of the squared deviation of the weights' row `v`. -/
theorem v29_apply0 (v : Fin 32) :
    (Vh m c main_v29 : FVec Ideal S3x32 .f32) (ix2 (0 : Fin 3) v)
      = Cert.Spec.mean (fun j => Cert.Spec.dev (fun l => Wm m c (ix2 v l)) j * Cert.Spec.dev (fun l => Wm m c (ix2 v l)) j) := by
  rw [v29_stack, cat3_apply0, v17_stage, v8_eq, rowMean_apply]
  simp only [mulf_apply, centre_apply]

/-- Row 1 at `v`: the mean of the weights' deviation times the biases' deviation, row `v`. -/
theorem v29_apply1 (v : Fin 32) :
    (Vh m c main_v29 : FVec Ideal S3x32 .f32) (ix2 (1 : Fin 3) v)
      = Cert.Spec.mean (fun j => Cert.Spec.dev (fun l => Wm m c (ix2 v l)) j * Cert.Spec.dev (fun l => Bm m c (ix2 v l)) j) := by
  rw [v29_stack, cat3_apply1, v21_stage, v8_eq, v11_eq, rowMean_apply]
  simp only [mulf_apply, centre_apply]

/-- Row 2 at `v`: the mean of the squared deviation of the biases' row `v`. -/
theorem v29_apply2 (v : Fin 32) :
    (Vh m c main_v29 : FVec Ideal S3x32 .f32) (ix2 (2 : Fin 3) v)
      = Cert.Spec.mean (fun j => Cert.Spec.dev (fun l => Bm m c (ix2 v l)) j * Cert.Spec.dev (fun l => Bm m c (ix2 v l)) j) := by
  rw [v29_stack, cat3_apply2, v25_stage, v11_eq, rowMean_apply]
  simp only [mulf_apply, centre_apply]

/-- The input `x` and the shift `beta` are written by no host operation. -/
theorem v_arg0 : Vh m c main_arg0 = m ((c : Thread nD τ).loc main_arg0) := Cert.HostArgs.Vh_main_arg0 m c
theorem v_arg4 : Vh m c main_arg4 = m ((c : Thread nD τ).loc main_arg4) := Cert.HostArgs.Vh_main_arg4 m c

end Cert.HostSide

end
-- ==== Proof.RefSide.lean ====
/-
  The reference program's result, read index by index at the ideal values.
-/
import proofs.«150935_j9199819948534_2_alg».proof.Proof.Gen.ReferenceIdeal.Run
import proofs.«150935_j9199819948534_2_alg».proof.Proof.Gen.ReferenceIdeal.Read
import proofs.«150935_j9199819948534_2_alg».proof.Proof.Spec
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx

variable (X : (⟨S16x2048x32, .f32⟩ : BufTy).Contents (Elt Ideal))
  (W B Gm Be : (⟨S32x128, .f32⟩ : BufTy).Contents (Elt Ideal))

/-- The row `x · w + b` at the entry `(p, s, v, j)`. -/
theorem row_apply (p : Fin 16) (s : Fin 2048) (v : Fin 32) (j : Fin 128) :
    val_main_v7 (F := Ideal) X W B (ix4 p s v j) = X (ix3 p s v) * W (ix2 v j) + B (ix2 v j) := by
  have e0 : idx_main_v0 (idx_main_v2 (ix4 p s v j)) = ix3 p s v :=
    funext fun a => Fin.ext (by match a with | ⟨0, _⟩ => rfl | ⟨1, _⟩ => rfl | ⟨2, _⟩ => rfl)
  have e1 : idx_main_v1 (idx_main_v3 (ix4 p s v j)) = ix2 v j :=
    funext fun a => Fin.ext (by match a with | ⟨0, _⟩ => rfl | ⟨1, _⟩ => rfl)
  have e5 : idx_main_v5 (idx_main_v6 (ix4 p s v j)) = ix2 v j :=
    funext fun a => Fin.ext (by match a with | ⟨0, _⟩ => rfl | ⟨1, _⟩ => rfl)
  rw [val_main_v7_apply, val_main_v4_apply, val_main_v2_apply, val_main_v0_apply, val_main_v3_apply,
    val_main_v1_apply, val_main_v6_apply, val_main_v5_apply, e0, e1, e5]
  simp only [Ideal.addf_def, Ideal.mulf_def]

/-- The sum of the row over its 128 lanes, from zero. -/
theorem rowsum_apply (p : Fin 16) (s : Fin 2048) (v : Fin 32) :
    val_main_v8 (F := Ideal) X W B (ix3 p s v)
      = Spec.zero + ∑ j : Fin 128, (X (ix3 p s v) * W (ix2 v j) + B (ix2 v j)) := by
  rw [val_main_v8_apply, val_main_cst_apply]
  simp only [Ideal.ofBits_def]
  refine congrArg (_ + ·) (Finset.sum_congr rfl fun j _ => ?_)
  have e : idx_main_v8 (ix3 p s v) j = ix4 p s v j :=
    funext fun a => Fin.ext (by match a with | ⟨0, _⟩ => rfl | ⟨1, _⟩ => rfl | ⟨2, _⟩ => rfl | ⟨3, _⟩ => rfl)
  rw [e, row_apply]

/-- The row's mean, at the one entry `(p, s, v, 0)` of the reduced array. -/
theorem mean_apply (p : Fin 16) (s : Fin 2048) (v : Fin 32) :
    val_main_v11 (F := Ideal) X W B (ix4 p s v (0 : Fin 1))
      = Spec.mean (fun j => X (ix3 p s v) * W (ix2 v j) + B (ix2 v j)) := by
  have e : idx_main_v9 (ix4 p s v (0 : Fin 1)) = ix3 p s v :=
    funext fun a => Fin.ext (by match a with | ⟨0, _⟩ => rfl | ⟨1, _⟩ => rfl | ⟨2, _⟩ => rfl)
  rw [val_main_v11_apply, val_main_v9_apply, val_main_v10_apply, val_main_cst_0_apply, e, rowsum_apply]
  simp only [Ideal.hostDivf_def, Ideal.ofBits_def]
  rfl

/-- The row minus its mean (the operand of the square). -/
theorem centred_apply (p : Fin 16) (s : Fin 2048) (v : Fin 32) (j : Fin 128) :
    val_main_v13 (F := Ideal) X W B (ix4 p s v j)
      = Spec.centred (X (ix3 p s v)) (fun j => W (ix2 v j)) (fun j => B (ix2 v j)) j := by
  have e : idx_main_v12 (ix4 p s v j) = ix4 p s v (0 : Fin 1) :=
    funext fun a => Fin.ext (by match a with | ⟨0, _⟩ => rfl | ⟨1, _⟩ => rfl | ⟨2, _⟩ => rfl | ⟨3, _⟩ => rfl)
  rw [val_main_v13_apply, val_main_v12_apply, e, mean_apply, row_apply]
  simp only [Ideal.subf_def]
  rfl

/-- The row minus its mean (the operand of the normalisation): the same entries. -/
theorem centred'_apply (p : Fin 16) (s : Fin 2048) (v : Fin 32) (j : Fin 128) :
    val_main_v20 (F := Ideal) X W B (ix4 p s v j)
      = Spec.centred (X (ix3 p s v)) (fun j => W (ix2 v j)) (fun j => B (ix2 v j)) j := by
  have e : idx_main_v19 (ix4 p s v j) = ix4 p s v (0 : Fin 1) :=
    funext fun a => Fin.ext (by match a with | ⟨0, _⟩ => rfl | ⟨1, _⟩ => rfl | ⟨2, _⟩ => rfl | ⟨3, _⟩ => rfl)
  rw [val_main_v20_apply, val_main_v19_apply, e, mean_apply, row_apply]
  simp only [Ideal.subf_def]
  rfl

/-- The sum of the squared centred row over its 128 lanes, from zero. -/
theorem sqsum_apply (p : Fin 16) (s : Fin 2048) (v : Fin 32) :
    val_main_v15 (F := Ideal) X W B (ix3 p s v)
      = Spec.zero + ∑ j : Fin 128,
          (Spec.centred (X (ix3 p s v)) (fun j => W (ix2 v j)) (fun j => B (ix2 v j)) j
            * Spec.centred (X (ix3 p s v)) (fun j => W (ix2 v j)) (fun j => B (ix2 v j)) j) := by
  rw [val_main_v15_apply, val_main_cst_1_apply]
  simp only [Ideal.ofBits_def]
  refine congrArg (_ + ·) (Finset.sum_congr rfl fun j _ => ?_)
  have e : idx_main_v15 (ix3 p s v) j = ix4 p s v j :=
    funext fun a => Fin.ext (by match a with | ⟨0, _⟩ => rfl | ⟨1, _⟩ => rfl | ⟨2, _⟩ => rfl | ⟨3, _⟩ => rfl)
  rw [e, val_main_v14_apply, centred_apply]
  simp only [Ideal.mulf_def]

/-- The variance: the mean of the squared centred row. -/
theorem var_apply (p : Fin 16) (s : Fin 2048) (v : Fin 32) :
    val_main_v18 (F := Ideal) X W B (ix4 p s v (0 : Fin 1))
      = Spec.mean (fun j =>
          Spec.centred (X (ix3 p s v)) (fun j => W (ix2 v j)) (fun j => B (ix2 v j)) j
            * Spec.centred (X (ix3 p s v)) (fun j => W (ix2 v j)) (fun j => B (ix2 v j)) j) := by
  have e : idx_main_v16 (ix4 p s v (0 : Fin 1)) = ix3 p s v :=
    funext fun a => Fin.ext (by match a with | ⟨0, _⟩ => rfl | ⟨1, _⟩ => rfl | ⟨2, _⟩ => rfl)
  rw [val_main_v18_apply, val_main_v16_apply, val_main_v17_apply, val_main_cst_2_apply, e, sqsum_apply]
  simp only [Ideal.hostDivf_def, Ideal.ofBits_def]
  rfl

/-- The reciprocal square root of the variance plus the small constant. -/
theorem rstd_apply (p : Fin 16) (s : Fin 2048) (v : Fin 32) :
    val_main_v23 (F := Ideal) X W B (ix4 p s v (0 : Fin 1))
      = Ideal.rsqrt (Spec.mean (fun j =>
          Spec.centred (X (ix3 p s v)) (fun j => W (ix2 v j)) (fun j => B (ix2 v j)) j
            * Spec.centred (X (ix3 p s v)) (fun j => W (ix2 v j)) (fun j => B (ix2 v j)) j) + Spec.eps) := by
  rw [val_main_v23_apply, val_main_v22_apply, val_main_v21_apply, val_main_cst_3_apply, var_apply]
  simp only [Ideal.hostUnary_rsqrt_def, Ideal.addf_def, Ideal.ofBits_def]

/-- The reference's entry `(p, s, v, k)` is the layer's entry read literally. -/
theorem ref_apply (p : Fin 16) (s : Fin 2048) (v : Fin 32) (k : Fin 128) :
    val_main_v32 (F := Ideal) X W B Gm Be (ix4 p s v k)
      = Spec.refAt (X (ix3 p s v)) (fun j => W (ix2 v j)) (fun j => B (ix2 v j)) (Gm (ix2 v k)) (Be (ix2 v k)) k := by
  have e24 : idx_main_v24 (ix4 p s v k) = ix4 p s v (0 : Fin 1) :=
    funext fun a => Fin.ext (by match a with | ⟨0, _⟩ => rfl | ⟨1, _⟩ => rfl | ⟨2, _⟩ => rfl | ⟨3, _⟩ => rfl)
  have e26 : idx_main_v26 (idx_main_v27 (ix4 p s v k)) = ix2 v k :=
    funext fun a => Fin.ext (by match a with | ⟨0, _⟩ => rfl | ⟨1, _⟩ => rfl)
  have e29 : idx_main_v29 (idx_main_v30 (ix4 p s v k)) = ix2 v k :=
    funext fun a => Fin.ext (by match a with | ⟨0, _⟩ => rfl | ⟨1, _⟩ => rfl)
  rw [val_main_v32_apply, val_main_v31_apply, val_main_v28_apply, val_main_v25_apply, val_main_v24_apply,
    val_main_v27_apply, val_main_v26_apply, val_main_v30_apply, val_main_v29_apply,
    val_main_call0_v0_apply, val_main_call0_cst_apply, e24, e26, e29, centred'_apply, rstd_apply]
  simp only [Ideal.maximumf_def, Ideal.addf_def, Ideal.mulf_def, Ideal.ofBits_def]
  rfl

end Cert.RefSide

end
-- ==== Proof.Algebra.lean ====
/-
  The two forms of the layer's entry agree on real arguments.

  For a real scalar `x`, real rows `w`, `b` and real `g`, `be`, write `mW`, `mB` for the rows' means and
  `dW j = w j − mW`, `dB j = b j − mB`.  The mean of the row `x · w + b` is `x · mW + mB`, so the centred row
  is `c j = x · dW j + dB j`, and the mean of its square is the quadratic
  `mean (dW²) · x² + 2 · mean (dW · dB) · x + mean (dB²)`: the two forms take the reciprocal square root of the
  same extended real.  Calling that root `R` (nothing about it is needed), the literal form is
  `max (c k · R · g + be) 0` and the rearranged one `max (R · (x · (g · dW k) + g · dB k) + be) 0`; they agree
  because multiplication of extended reals is commutative and associative and `c k · g = x · (g · dW k) + g · dB k`.
-/
import proofs.«150935_j9199819948534_2_alg».proof.Proof.Spec
import Idealize.ShloMosaic.PureOps.Ideal.Laws
import Mathlib.Tactic.Ring
import Mathlib.Tactic.NormNum

noncomputable section

namespace Cert.Algebra

open Idealize.ShloMosaic

/-! ## The float words as reals -/

/-- The word of `128.0` denotes the real `128`. -/
theorem n128_eq : Spec.n128 = ((128 : ℝ) : EReal) := by
  simp [Ideal.ofBits, Ideal.ieee, -EReal.coe_mul]; norm_num

/-- The word of `2.0` denotes the real `2`. -/
theorem two_eq : Spec.two = ((2 : ℝ) : EReal) := by
  simp [Ideal.ofBits, Ideal.ieee, -EReal.coe_mul]; norm_num

/-- The word of `+0.0` denotes `0`. -/
theorem zero_eq : Spec.zero = 0 := Ideal.ofBits_zero_f32

/-! ## Coercions out of sums and means -/

/-- The coercion of a finite real sum is the sum of the coercions. -/
theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The mean of a real row is the real mean. -/
theorem mean_coe (f : Fin 128 → ℝ) :
    Spec.mean (fun j => (f j : EReal)) = (((∑ j, f j) / 128 : ℝ) : EReal) := by
  unfold Spec.mean
  rw [zero_eq, zero_add, n128_eq, Ideal.div_coe (by norm_num), ← coe_sum, ← EReal.coe_mul]
  congr 1
  ring

/-- A real row minus its mean is real. -/
theorem dev_coe (w : Fin 128 → ℝ) (k : Fin 128) :
    Spec.dev (fun j => (w j : EReal)) k = ((w k - (∑ j, w j) / 128 : ℝ) : EReal) := by
  unfold Spec.dev
  rw [mean_coe, ← EReal.coe_sub]

/-- The centred row of real arguments is real: `c k = x · dW k + dB k`. -/
theorem centred_coe (x : ℝ) (w b : Fin 128 → ℝ) (k : Fin 128) :
    Spec.centred (x : EReal) (fun j => (w j : EReal)) (fun j => (b j : EReal)) k
      = ((x * (w k - (∑ j, w j) / 128) + (b k - (∑ j, b j) / 128) : ℝ) : EReal) := by
  unfold Spec.centred
  simp only [← EReal.coe_mul, ← EReal.coe_add]
  rw [mean_coe, ← EReal.coe_sub]
  congr 1
  rw [Finset.sum_add_distrib, ← Finset.mul_sum]
  ring

/-! ## The variance of the centred row is a quadratic in `x` -/

/-- Over the reals: the mean of `(x · dW + dB)²` is `mean (dW²) · x² + 2 · mean (dW · dB) · x + mean (dB²)`. -/
theorem var_real (x : ℝ) (dW dB : Fin 128 → ℝ) :
    (∑ j, (x * dW j + dB j) * (x * dW j + dB j)) / 128
      = ((∑ j, dW j * dW j) / 128 * (x * x) + 2 * ((∑ j, dW j * dB j) / 128) * x)
          + (∑ j, dB j * dB j) / 128 := by
  have h : ∀ j, (x * dW j + dB j) * (x * dW j + dB j)
      = (x * x) * (dW j * dW j) + (2 * x) * (dW j * dB j) + dB j * dB j := fun j => by ring
  simp only [h, Finset.sum_add_distrib, ← Finset.mul_sum]
  ring

/-! ## The law -/

/-- On real arguments the rearranged form of the layer's entry is the literal one. -/
theorem ker_eq_ref (x : ℝ) (w b : Fin 128 → ℝ) (g be : ℝ) (k : Fin 128) :
    Cert.Spec.kerAt (x : EReal) (fun j => (w j : EReal)) (fun j => (b j : EReal)) (g : EReal) (be : EReal) k
      = Cert.Spec.refAt (x : EReal) (fun j => (w j : EReal)) (fun j => (b j : EReal)) (g : EReal) (be : EReal) k := by
  unfold Spec.kerAt Spec.refAt
  simp only [dev_coe, centred_coe, ← EReal.coe_mul, ← EReal.coe_add]
  rw [mean_coe, mean_coe, mean_coe, mean_coe, two_eq]
  simp only [← EReal.coe_mul, ← EReal.coe_add]
  rw [var_real]
  generalize Ideal.rsqrt _ = R
  have hcg : (x * (w k - (∑ j, w j) / 128) + (b k - (∑ j, b j) / 128)) * g
      = x * (g * (w k - (∑ j, w j) / 128)) + g * (b k - (∑ j, b j) / 128) := by ring
  rw [mul_comm (_ : EReal) R, mul_assoc, ← EReal.coe_mul, hcg]

end Cert.Algebra

end
-- ==== Proof.Finite.lean ====
/-
  The precondition says every argument entry is a real number.

  The printed predicate is the conjunction, over the five argument arrays, of "every entry's absolute value is
  below `+∞`".  An extended real whose absolute value `max x (−x)` is below `⊤` is neither `⊥` nor `⊤`,
  so it is the coercion of a real.
-/
import proofs.«150935_j9199819948534_2_alg».proof.Defs
import proofs.«150935_j9199819948534_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The scalar shape has one index. -/
instance : Subsingleton Cert.Pre_finite_inputs.S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value compares below `+∞` is a real. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : max x (-x) < (⊤ : EReal) := by
    have e : FloatOps.cmpf (F := Ideal) (φ := .f32) .olt (FloatOps.hostAbsf (F := Ideal) (φ := .f32) x)
          (FloatOps.ofBits (F := Ideal) .f32 0x7F800000#32)
        = BitVec.ofBool (decide (max x (-x) < Ideal.ofBits .f32 0x7F800000#32)) := rfl
    rw [e, ofBits_inf] at h
    by_contra hn
    rw [decide_eq_false hn] at h
    exact absurd h (by decide)
  induction x using EReal.rec with
  | bot => exact absurd h' (by simp)
  | top => exact absurd h' (by simp)
  | coe r => exact ⟨r, rfl⟩

open Cert.Pre_finite_inputs in
/-- One conjunct of the predicate: when the conjunction over all entries of "the absolute value is below `+∞`"
    is 1, every entry of the array is a real. -/
theorem entries_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1)
    (i : s.Idx) : ∃ r : ℝ, a i = (r : EReal) :=
  real_of_abs_lt (a i) (Host.reduce_andi_all _ init hr hu j e i)

open Cert.Pre_finite_inputs in
/-- The predicate decoded: if it is all ones on five arrays, every entry of each is a real. -/
theorem real_of_fn [Cert.Pre_finite_inputs.Facts] (a0 : FVec Ideal S16x2048x32 .f32) (a1 a2 a3 a4 : FVec Ideal S32x128 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [Cert.Pre_finite_inputs.fn, Cert.Pre_finite_inputs.fn_part1] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨entries_real a0 _ _ _ _ _ e0, entries_real a1 _ _ _ _ _ e1, entries_real a2 _ _ _ _ _ e2,
    entries_real a3 _ _ _ _ _ e3, entries_real a4 _ _ _ _ _ e4⟩

section AtTheKernel

open Cert.KernelIdeal

variable [Cert.Pre_finite_inputs.Facts]

/-- Under the precondition every entry of each of the five argument arrays is a real, on every device. -/
theorem args_real (m : (ℓ : Loc nD τ sig) → Buf (Elt Ideal) ℓ) (h : Cert.Pre_KernelIdeal m) (c : Dev nD) :
    (∀ i, ∃ r : ℝ, m ((c.tc : Thread nD τ).loc main_arg0) i = (r : EReal))
      ∧ (∀ i, ∃ r : ℝ, m ((c.tc : Thread nD τ).loc main_arg1) i = (r : EReal))
      ∧ (∀ i, ∃ r : ℝ, m ((c.tc : Thread nD τ).loc main_arg2) i = (r : EReal))
      ∧ (∀ i, ∃ r : ℝ, m ((c.tc : Thread nD τ).loc main_arg3) i = (r : EReal))
      ∧ (∀ i, ∃ r : ℝ, m ((c.tc : Thread nD τ).loc main_arg4) i = (r : EReal)) :=
  real_of_fn _ _ _ _ _ (h c)

/-- The scalars `x`. -/
theorem arg0_real (m : (ℓ : Loc nD τ sig) → Buf (Elt Ideal) ℓ) (h : Cert.Pre_KernelIdeal m) (c : Dev nD) :
    ∀ i, ∃ r : ℝ, m ((c.tc : Thread nD τ).loc main_arg0) i = (r : EReal) := (args_real m h c).1
/-- The rows `w`. -/
theorem arg1_real (m : (ℓ : Loc nD τ sig) → Buf (Elt Ideal) ℓ) (h : Cert.Pre_KernelIdeal m) (c : Dev nD) :
    ∀ i, ∃ r : ℝ, m ((c.tc : Thread nD τ).loc main_arg1) i = (r : EReal) := (args_real m h c).2.1
/-- The rows `b`. -/
theorem arg2_real (m : (ℓ : Loc nD τ sig) → Buf (Elt Ideal) ℓ) (h : Cert.Pre_KernelIdeal m) (c : Dev nD) :
    ∀ i, ∃ r : ℝ, m ((c.tc : Thread nD τ).loc main_arg2) i = (r : EReal) := (args_real m h c).2.2.1
/-- The scale. -/
theorem arg3_real (m : (ℓ : Loc nD τ sig) → Buf (Elt Ideal) ℓ) (h : Cert.Pre_KernelIdeal m) (c : Dev nD) :
    ∀ i, ∃ r : ℝ, m ((c.tc : Thread nD τ).loc main_arg3) i = (r : EReal) := (args_real m h c).2.2.2.1
/-- The shift. -/
theorem arg4_real (m : (ℓ : Loc nD τ sig) → Buf (Elt Ideal) ℓ) (h : Cert.Pre_KernelIdeal m) (c : Dev nD) :
    ∀ i, ∃ r : ℝ, m ((c.tc : Thread nD τ).loc main_arg4) i = (r : EReal) := (args_real m h c).2.2.2.2

end AtTheKernel

end Cert.Finite

end
-- ==== Proof.Bridge.lean ====
/-
  The two programs compute one function.

  The kernel's result array is the entry-wise formula over the arrays the host prepared, and those arrays hold
  the scaled deviations and the second moments of the weight and bias rows; so each entry of the kernel's result
  is the rearranged form of the layer at that entry.  Each entry of the reference's result is the literal form.
  When every input entry is a real number the two forms agree: the centred row is affine in `x`, its variance
  is the quadratic in `x` whose coefficients are the three moments, and the scale commutes with the normalisation.
-/
import proofs.«150935_j9199819948534_2_alg».proof.Proof.KerValue
import proofs.«150935_j9199819948534_2_alg».proof.Proof.HostSide
import proofs.«150935_j9199819948534_2_alg».proof.Proof.RefSide
import proofs.«150935_j9199819948534_2_alg».proof.Proof.Algebra
import proofs.«150935_j9199819948534_2_alg».proof.Proof.Finite

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.HostArgs (Vh)

variable (m : (ℓ : Loc nD τ sig) → Buf (Elt Ideal) ℓ) (c : Dev nD)

/-- The entry-wise formula at an index given by its coordinates. -/
theorem arr_apply (X : S16x2048x32.Idx → EReal) (P1 P2 P3 : S32x128.Idx → EReal) (M : S3x32.Idx → EReal)
    (p : Fin 16) (s : Fin 2048) (v : Fin 32) (k : Fin 128) :
    KerValue.arr X P1 P2 P3 M (ix4 p s v k)
      = max (Ideal.rsqrt (((M (ix2 (0 : Fin 3) v) * (X (ix3 p s v) * X (ix3 p s v))
              + (Spec.two * M (ix2 (1 : Fin 3) v)) * X (ix3 p s v))
              + M (ix2 (2 : Fin 3) v)) + Spec.eps)
            * (X (ix3 p s v) * P1 (ix2 v k) + P2 (ix2 v k)) + P3 (ix2 v k)) Spec.zero := rfl

/-- An entry of the kernel's result array is the rearranged form of the layer at that entry, over the arguments. -/
theorem kernel_entry (p : Fin 16) (s : Fin 2048) (v : Fin 32) (k : Fin 128) :
    KerValue.arr (Vh m c main_arg0) (Vh m c main_v12) (Vh m c main_v13) (Vh m c main_arg4) (Vh m c main_v29) (ix4 p s v k)
      = Spec.kerAt (m ((c : Thread nD τ).loc main_arg0) (ix3 p s v)) (fun j => m ((c : Thread nD τ).loc main_arg1) (ix2 v j))
          (fun j => m ((c : Thread nD τ).loc main_arg2) (ix2 v j)) (m ((c : Thread nD τ).loc main_arg3) (ix2 v k))
          (m ((c : Thread nD τ).loc main_arg4) (ix2 v k)) k := by
  rw [arr_apply, HostSide.v29_apply0, HostSide.v29_apply1, HostSide.v29_apply2, HostSide.v12_apply, HostSide.v13_apply,
    HostArgs.Vh_main_arg0, HostArgs.Vh_main_arg4]
  rfl

/-- Under the precondition the kernel's result array is the reference's result, entry by entry. -/
theorem result_eq [Cert.Pre_finite_inputs.Facts] (hpre : Cert.Pre_KernelIdeal m) :
    KerValue.arr (Vh m c main_arg0) (Vh m c main_v12) (Vh m c main_v13) (Vh m c main_arg4) (Vh m c main_v29)
      = Cert.ReferenceIdeal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨p, s, v, k, rfl⟩ : ∃ (p : Fin 16) (s : Fin 2048) (v : Fin 32) (k : Fin 128), i = ix4 p s v k :=
    ⟨i 0, i 1, i 2, i 3, eq_ix4 i⟩
  rw [kernel_entry, RefSide.ref_apply]
  obtain ⟨h0, h1, h2, h3, h4⟩ := Finite.args_real m hpre c
  obtain ⟨x, hx⟩ := h0 (ix3 p s v)
  choose w hw using fun j : Fin 128 => h1 (ix2 v j)
  choose b hb using fun j : Fin 128 => h2 (ix2 v j)
  obtain ⟨g, hg⟩ := h3 (ix2 v k)
  obtain ⟨be, hbe⟩ := h4 (ix2 v k)
  have ew : (fun j : Fin 128 => m ((c : Thread nD τ).loc main_arg1) (ix2 v j)) = fun j => ((w j : ℝ) : EReal) := funext hw
  have eb : (fun j : Fin 128 => m ((c : Thread nD τ).loc main_arg2) (ix2 v j)) = fun j => ((b j : ℝ) : EReal) := funext hb
  rw [hx, hg, hbe, ew, eb]
  exact Algebra.ker_eq_ref x w b g be k

end Cert.Bridge

end
-- ==== Proof.lean ====
/-
  The certificate's five claims.

  The layer is  relu (LayerNorm over the 128 lanes of x · W + b, times gamma, plus beta)  per batch entry,
  position and variable.  The reference computes it literally.  The kernel uses that the row `x · W + b` minus
  its mean is `x · dW + dB` with `dW = W − mean W`, `dB = b − mean b`, so that its variance is the quadratic
  `a · x² + 2 c · x + d` in the scalar `x` with the per-variable moments `a = mean dW²`, `c = mean (dW · dB)`,
  `d = mean dB²`: the host prepares `gamma · dW`, `gamma · dB` and the three moments, and the launch writes
  `relu (rsqrt (a x² + 2 c x + d + eps) · (x · (gamma · dW) + gamma · dB) + beta)` block by block.

  * Each program runs to the end and leaves its arguments unchanged: the two kernel programs by the launch's frame
    (modules FrameBits, FrameIdeal), the reference by its run read back.
  * The idealized kernel is the kernel's own text read at the ideal values: no operation was rewritten.
  * At the ideal values, from memories agreeing on the arguments, the kernel's result array (KerValue: the blocks the
    64 points wrote tile it) and the reference's (RefSide) are one function of the arguments (Bridge), the inputs
    being finite by the precondition (Finite) and the two forms equal over the reals (Algebra).
-/
import proofs.«150935_j9199819948534_2_alg».proof.Defs
import proofs.«150935_j9199819948534_2_alg».proof.Proof.Gen.Kernel
import proofs.«150935_j9199819948534_2_alg».proof.Proof.Gen.KernelIdeal
import proofs.«150935_j9199819948534_2_alg».proof.Proof.Gen.ReferenceIdeal
import proofs.«150935_j9199819948534_2_alg».proof.Proof.Gen.Pre_finite_inputs
import proofs.«150935_j9199819948534_2_alg».proof.Proof.Gen.ReferenceIdeal.Run
import proofs.«150935_j9199819948534_2_alg».proof.Proof.Gen.ReferenceIdeal.Read
import proofs.«150935_j9199819948534_2_alg».proof.Proof.FrameBits
import proofs.«150935_j9199819948534_2_alg».proof.Proof.FrameIdeal
import proofs.«150935_j9199819948534_2_alg».proof.Proof.KerValue
import proofs.«150935_j9199819948534_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, the kernel with its result array at the entry-wise formula over the prepared arrays, the
    reference at its last stage; under the precondition those are one array. -/
theorem algebraic : Cert.algebraic_KernelIdeal_ReferenceIdeal := by
  intro m ρ m' ρ' hpre hagree
  refine ⟨_, Cert.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1, (hagree c).2.2.2.2]
  exact (Cert.Bridge.result_eq m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
